-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S3x3 : Shape := ⟨2, ![3, 3]⟩
abbrev S25000000 : Shape := ⟨1, ![25000000]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S1000000x3 .f32) (main_arg1 : FVec F S3x3 .f32) (main_arg2 : FVec F S3x3 .f32) (main_arg3 : IVec S25000000 32) (main_arg4 : IVec S25000000 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  let main_v9 : FVec F S3x3 .f32 := Host.absf main_arg2
  let main_cst_2 : FVec F S_ .f32 := constant S_ .f32 0x7F800000#32
  let main_v10 : FVec F S3x3 .f32 := broadcastInDim S3x3 ![] bcast_S_S3x3 main_cst_2
  let main_v11 : IVec S3x3 1 := cmpf .olt main_v9 main_v10
  let main_c_3 : IVec S_ 1 := constantI S_ 1 1#1
  let main_v12 : IVec S_ 1 := (fun x v => Host.reduce IntOp.andi x v reducesTo_S3x3_S_d0_1 h_S_) main_v11 main_c_3
  let main_v13 : IVec S_ 1 := andi main_v8 main_v12
  main_v13
-- ==== Kernel.lean ====
abbrev S1000000x3 : Shape := ⟨2, ![1000000, 3]⟩
abbrev S3x3 : Shape := ⟨2, ![3, 3]⟩
abbrev S25000000 : Shape := ⟨1, ![25000000]⟩
abbrev S_ : Shape := ⟨0, ![]⟩
abbrev S25000000x1 : Shape := ⟨2, ![25000000, 1]⟩
abbrev S25000000x3 : Shape := ⟨2, ![25000000, 3]⟩
abbrev S1x3 : Shape := ⟨2, ![1, 3]⟩
abbrev S10000x3 : Shape := ⟨2, ![10000, 3]⟩
abbrev S3 : Shape := ⟨1, ![3]⟩
abbrev S1 : Shape := ⟨1, ![1]⟩
abbrev S1x1 : Shape := ⟨2, ![1, 1]⟩

abbrev nBuf : Space → Nat
  | .hbm => 19
  | .vmem => 8
  | .smem => 0
  | _ => 0

abbrev bufTy : (tb : Table) → Fin (tcTables nBuf tb) → BufTy
  | .hbm, ⟨0, _⟩ => ⟨S1000000x3, .f32⟩
  | .hbm, ⟨1, _⟩ => ⟨S3x3, .f32⟩
  | .hbm, ⟨2, _⟩ => ⟨S3x3, .f32⟩
  | .hbm, ⟨3, _⟩ => ⟨S25000000, .i32⟩
  | .hbm, ⟨4, _⟩ => ⟨S25000000, .i32⟩
  | .hbm, ⟨5, _⟩ => ⟨S_, .i32⟩
  | .hbm, ⟨6, _⟩ => ⟨S25000000, .i32⟩
  | .hbm, ⟨7, _⟩ => ⟨S25000000, .i1⟩
  | .hbm, ⟨8, _⟩ => ⟨S_, .i32⟩
  | .hbm, ⟨9, _⟩ => ⟨S25000000, .i32⟩
  | .hbm, ⟨10, _⟩ => ⟨S25000000, .i32⟩
  | .hbm, ⟨11, _⟩ => ⟨S25000000, .i32⟩
  | .hbm, ⟨12, _⟩ => ⟨S25000000x1, .i32⟩
  | .hbm, ⟨13, _⟩ => ⟨S25000000x3, .f32⟩
  | .hbm, ⟨14, _⟩ => ⟨S_, .f32⟩
  | .hbm, ⟨15, _⟩ => ⟨S1000000x3, .f32⟩
  | .hbm, ⟨16, _⟩ => ⟨S25000000x1, .i32⟩
  | .hbm, ⟨17, _⟩ => ⟨S1000000x3, .f32⟩
  | .hbm, ⟨18, _⟩ => ⟨S1x3, .f32⟩
  | .local _ .vmem, ⟨0, _⟩ => ⟨S10000x3, .f32⟩
  | .local _ .vmem, ⟨1, _⟩ => ⟨S10000x3, .f32⟩
  | .local _ .vmem, ⟨2, _⟩ => ⟨S10000x3, .f32⟩
  | .local _ .vmem, ⟨3, _⟩ => ⟨S10000x3, .f32⟩
  | .local _ .vmem, ⟨4, _⟩ => ⟨S3x3, .f32⟩
  | .local _ .vmem, ⟨5, _⟩ => ⟨S3x3, .f32⟩
  | .local _ .vmem, ⟨6, _⟩ => ⟨S1x3, .f32⟩
  | .local _ .vmem, ⟨7, _⟩ => ⟨S1x3, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v20 : BitVec 1 := Scalar.cmpi .eq arg0 c99_i32
  let v21 : BitVec 32 := Scalar.extui v20
  let c0_i32_15 : BitVec 32 := 0#32
  let v22 : BitVec 1 := Scalar.cmpi .ne v21 c0_i32_15
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S_S25000000 : S_.BroadcastsInDim S25000000 (![] : Fin 0 → Fin S25000000.rank)
  bcast_S25000000_S25000000x1_0 : S25000000.BroadcastsInDim S25000000x1 (![0] : Fin 1 → Fin S25000000x1.rank)
  bcast_S_S1000000x3 : S_.BroadcastsInDim S1000000x3 (![] : Fin 0 → Fin S1000000x3.rank)
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S10000x3_S10000x3_0_0 : ∀ a, (![0, 0] : Fin 2 → Nat) a + S10000x3.size a ≤ S10000x3.size a
  h_S10000x3 : 0 < S10000x3.numel
  inb_S3x3_S3x3_0_0 : ∀ a, (![0, 0] : Fin 2 → Nat) a + S3x3.size a ≤ S3x3.size a
  h_S3x3 : 0 < S3x3.numel
  shapeCasts_S10000x3_S10000x3 : S10000x3.ShapeCasts S10000x3
  reduces_S10000x3_S3 : S10000x3.Reduces [0] S3
  shapeCasts_S3_S1x3 : S3.ShapeCasts S1x3
  reduces_S1x3_S1 : S1x3.Reduces [1] S1
  shapeCasts_S1_S1x1 : S1.ShapeCasts S1x1
  broadcasts_S1x1_S1x3 : S1x1.Broadcasts S1x3
  gather_S1000000x3_S25000000x1_S25000000x3_1_0_n_n_0_1_13_wf : GatherDims.WF S1000000x3 S25000000x1 S25000000x3 [1] [0] [] [0] [] 1 ![1, 3]
  scatter_S1000000x3_S25000000x1_S25000000x3_1_0_0_1_wf : ScatterDims.WF S1000000x3 S25000000x1 S25000000x3 [1] [0] [0] 1
  dot_S10000x3_S3x3_S10000x3_1_0_0_1_n_n_wf : DotDims.WF S10000x3 S3x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S1000000x3.size a
  hwx0_0 : ∀ i : grid0.Coords, EltTy.bits .f32 = 32 ∨ (Rect.block (s := S1000000x3) S10000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x3.size a ≤ S1000000x3.size a
  hwx0_1 : ∀ i : grid0.Coords, EltTy.bits .f32 = 32 ∨ (Rect.block (s := S1000000x3) S10000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x3.size a ≤ S3x3.size a
  hwx0_2 : ∀ i : grid0.Coords, EltTy.bits .f32 = 32 ∨ (Rect.block (s := S3x3) S3x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)

variable [Facts₀]

def gather_S1000000x3_S25000000x1_S25000000x3_1_0_n_n_0_1_13 : GatherDims S1000000x3 S25000000x1 S25000000x3 where
  offsetDims := [1]
  collapsedSliceDims := [0]
  operandBatchingDims := []
  startIndicesBatchingDims := []
  startIndexMap := [0]
  indexVectorDim := 1
  sliceSizes := ![1, 3]
  wf := gather_S1000000x3_S25000000x1_S25000000x3_1_0_n_n_0_1_13_wf
def scatter_S1000000x3_S25000000x1_S25000000x3_1_0_0_1 : ScatterDims S1000000x3 S25000000x1 S25000000x3 where
  updateWindowDims := [1]
  insertedWindowDims := [0]
  scatterDimsToOperandDims := [0]
  indexVectorDim := 1
  wf := scatter_S1000000x3_S25000000x1_S25000000x3_1_0_0_1_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x3.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000x3 : Shape := ⟨2, ![1000000, 3]⟩
abbrev S3x3 : Shape := ⟨2, ![3, 3]⟩
abbrev S25000000 : Shape := ⟨1, ![25000000]⟩
abbrev S_ : Shape := ⟨0, ![]⟩
abbrev S25000000x1 : Shape := ⟨2, ![25000000, 1]⟩
abbrev S25000000x3 : Shape := ⟨2, ![25000000, 3]⟩
abbrev S3 : Shape := ⟨1, ![3]⟩
abbrev S1x3 : Shape := ⟨2, ![1, 3]⟩
abbrev S1 : Shape := ⟨1, ![1]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S3x3, .f32⟩
  | .hbm, ⟨2, _⟩ => ⟨S3x3, .f32⟩
  | .hbm, ⟨3, _⟩ => ⟨S25000000, .i32⟩
  | .hbm, ⟨4, _⟩ => ⟨S25000000, .i32⟩
  | .hbm, ⟨5, _⟩ => ⟨S_, .i32⟩
  | .hbm, ⟨6, _⟩ => ⟨S25000000, .i32⟩
  | .hbm, ⟨7, _⟩ => ⟨S25000000, .i1⟩
  | .hbm, ⟨8, _⟩ => ⟨S_, .i32⟩
  | .hbm, ⟨9, _⟩ => ⟨S25000000, .i32⟩
  | .hbm, ⟨10, _⟩ => ⟨S25000000, .i32⟩
  | .hbm, ⟨11, _⟩ => ⟨S25000000, .i32⟩
  | .hbm, ⟨12, _⟩ => ⟨S25000000x1, .i32⟩
  | .hbm, ⟨13, _⟩ => ⟨S25000000x3, .f32⟩
  | .hbm, ⟨14, _⟩ => ⟨S_, .f32⟩
  | .hbm, ⟨15, _⟩ => ⟨S1000000x3, .f32⟩
  | .hbm, ⟨16, _⟩ => ⟨S25000000x1, .i32⟩
  | .hbm, ⟨17, _⟩ => ⟨S1000000x3, .f32⟩
  | .hbm, ⟨18, _⟩ => ⟨S1000000x3, .f32⟩
  | .hbm, ⟨19, _⟩ => ⟨S1000000x3, .f32⟩
  | .hbm, ⟨20, _⟩ => ⟨S1000000x3, .f32⟩
  | .hbm, ⟨21, _⟩ => ⟨S_, .f32⟩
  | .hbm, ⟨22, _⟩ => ⟨S1000000x3, .f32⟩
  | .hbm, ⟨23, _⟩ => ⟨S1000000x3, .f32⟩
  | .hbm, ⟨24, _⟩ => ⟨S_, .f32⟩
  | .hbm, ⟨25, _⟩ => ⟨S3, .f32⟩
  | .hbm, ⟨26, _⟩ => ⟨S1x3, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1x1, .f32⟩
  | .hbm, ⟨33, _⟩ => ⟨S1x3, .f32⟩
  | .hbm, ⟨34, _⟩ => ⟨S1x3, .f32⟩
  | .hbm, ⟨35, _⟩ => ⟨S1x3, .f32⟩
  | .hbm, ⟨36, _⟩ => ⟨S_, .f32⟩
  | .hbm, ⟨37, _⟩ => ⟨S1, .f32⟩
  | .hbm, ⟨38, _⟩ => ⟨S1x1, .f32⟩
  | .hbm, ⟨39, _⟩ => ⟨S1x3, .f32⟩
  | .hbm, ⟨40, _⟩ => ⟨S1x3, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S25000000 : S_.BroadcastsInDim S25000000 (![] : Fin 0 → Fin S25000000.rank)
  bcast_S25000000_S25000000x1_0 : S25000000.BroadcastsInDim S25000000x1 (![0] : Fin 1 → Fin S25000000x1.rank)
  bcast_S_S1000000x3 : S_.BroadcastsInDim S1000000x3 (![] : Fin 0 → Fin S1000000x3.rank)
  reducesTo_S1000000x3_S3_d0 : S1000000x3.ReducesTo [0] S3
  h_S_ : 0 < S_.numel
  bcast_S3_S1x3_1 : S3.BroadcastsInDim S1x3 (![1] : Fin 1 → Fin S1x3.rank)
  reducesTo_S1x3_S1_d1 : S1x3.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x3_0_1 : S1x1.BroadcastsInDim S1x3 (![0, 1] : Fin 2 → Fin S1x3.rank)
  gather_S1000000x3_S25000000x1_S25000000x3_1_0_n_n_0_1_13_wf : GatherDims.WF S1000000x3 S25000000x1 S25000000x3 [1] [0] [] [0] [] 1 ![1, 3]
  scatter_S1000000x3_S25000000x1_S25000000x3_1_0_0_1_wf : ScatterDims.WF S1000000x3 S25000000x1 S25000000x3 [1] [0] [0] 1
  dot_S1000000x3_S3x3_S1000000x3_1_0_0_1_n_n_wf : DotDims.WF S1000000x3 S3x3 S1000000x3 [1] [0] [0] [1] [] []

variable [Facts₀]

def gather_S1000000x3_S25000000x1_S25000000x3_1_0_n_n_0_1_13 : GatherDims S1000000x3 S25000000x1 S25000000x3 where
  offsetDims := [1]
  collapsedSliceDims := [0]
  operandBatchingDims := []
  startIndicesBatchingDims := []
  startIndexMap := [0]
  indexVectorDim := 1
  sliceSizes := ![1, 3]
  wf := gather_S1000000x3_S25000000x1_S25000000x3_1_0_n_n_0_1_13_wf
def scatter_S1000000x3_S25000000x1_S25000000x3_1_0_0_1 : ScatterDims S1000000x3 S25000000x1 S25000000x3 where
  updateWindowDims := [1]
  insertedWindowDims := [0]
  scatterDimsToOperandDims := [0]
  indexVectorDim := 1
  wf := scatter_S1000000x3_S25000000x1_S25000000x3_1_0_0_1_wf
def dot_S1000000x3_S3x3_S1000000x3_1_0_0_1_n_n : DotDims S1000000x3 S3x3 S1000000x3 where
  lhsContracting := [1]
  rhsContracting := [0]
  lhsNonContracting := [0]
  rhsNonContracting := [1]
  lhsBatch := []
  rhsBatch := []
  wf := dot_S1000000x3_S3x3_S1000000x3_1_0_0_1_n_n_wf

class Facts : Prop extends Facts₀ where

variable [Facts]
-- ==== Proof.Cases.lean ====
/-
  What each of the body's three control cases leaves behind, as values of what it loaded.

  The body loads the x block, W, the aggregate block, M and the scratch row; it stores into the scratch row the
  accumulating payload of those five (at the first grid point over the zero row it has just stored and read back),
  and at the last grid point stores into the output row the softmax payload of the scratch row it has just
  written. Every load and store goes through the whole buffer, so each case's covering stores read back as the
  payload itself.
-/
import proofs.«115697_j63917703299187_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the scratch ends at the accumulating payload over the zero row. -/
theorem scratch_A (c : Dev nD) (i : grid0.Coords) (arg1 : Memref sig .tc .vmem S10000x3 .f32) (harg1 : arg1.IsWhole) (arg2 : Memref sig .tc .vmem S10000x3 .f32) (harg2 : arg2.IsWhole) (arg3 : Memref sig .tc .vmem S3x3 .f32) (harg3 : arg3.IsWhole) (arg4 : Memref sig .tc .vmem S3x3 .f32) (harg4 : arg4.IsWhole) (arg5 : Memref sig .tc .vmem S1x3 .f32) (harg5 : arg5.IsWhole) (arg6 : Memref sig .tc .vmem S1x3 .f32) (harg6 : arg6.IsWhole) (hc0 : cond0_0 i) (hc1 : ¬cond0_1 i) (x0 : Vec F S10000x3 .f32) (x1 : Vec F S10000x3 .f32) (x2 : Vec F S3x3 .f32) (x3 : Vec F S3x3 .f32) :
    sout0_A_0 c i arg1 harg1 arg2 harg2 arg3 harg3 arg4 harg4 arg5 harg5 arg6 harg6 hc0 hc1 x0 x1 x2 x3 = k0_pay2 x0 x2 x1 x3 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x3) hz, View.readCov_unit_zero (S := S1x3) _ hz]
  simp only [View.readAt_eq_ld, harg1.read_unread, harg2.read_unread, harg3.read_unread, harg4.read_unread, harg6.read_unread,
    View.ld_unit_zero (S := S10000x3) hz, View.ld_unit_zero (S := S3x3) hz, View.ld_unit_zero (S := S1x3) hz]

/-- A middle point: the scratch ends at the accumulating payload over what it held. -/
theorem scratch_B (c : Dev nD) (i : grid0.Coords) (arg1 : Memref sig .tc .vmem S10000x3 .f32) (harg1 : arg1.IsWhole) (arg2 : Memref sig .tc .vmem S10000x3 .f32) (harg2 : arg2.IsWhole) (arg3 : Memref sig .tc .vmem S3x3 .f32) (harg3 : arg3.IsWhole) (arg4 : Memref sig .tc .vmem S3x3 .f32) (harg4 : arg4.IsWhole) (arg5 : Memref sig .tc .vmem S1x3 .f32) (harg5 : arg5.IsWhole) (arg6 : Memref sig .tc .vmem S1x3 .f32) (harg6 : arg6.IsWhole) (hc0 : ¬cond0_0 i) (hc1 : ¬cond0_1 i) (x0 : Vec F S10000x3 .f32) (x1 : Vec F S10000x3 .f32) (x2 : Vec F S3x3 .f32) (x3 : Vec F S3x3 .f32) (xs0 : Vec F S1x3 .f32) :
    sout0_B_0 c i arg1 harg1 arg2 harg2 arg3 harg3 arg4 harg4 arg5 harg5 arg6 harg6 hc0 hc1 x0 x1 x2 x3 xs0 = k0_pay2 x0 x2 x1 x3 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg6.read_unread,
    View.ld_unit_zero (S := S10000x3) hz, View.ld_unit_zero (S := S3x3) hz, View.ld_unit_zero (S := S1x3) hz]

/-- The last point: the scratch likewise, -/
theorem scratch_C (c : Dev nD) (i : grid0.Coords) (arg1 : Memref sig .tc .vmem S10000x3 .f32) (harg1 : arg1.IsWhole) (arg2 : Memref sig .tc .vmem S10000x3 .f32) (harg2 : arg2.IsWhole) (arg3 : Memref sig .tc .vmem S3x3 .f32) (harg3 : arg3.IsWhole) (arg4 : Memref sig .tc .vmem S3x3 .f32) (harg4 : arg4.IsWhole) (arg5 : Memref sig .tc .vmem S1x3 .f32) (harg5 : arg5.IsWhole) (arg6 : Memref sig .tc .vmem S1x3 .f32) (harg6 : arg6.IsWhole) (hc0 : ¬cond0_0 i) (hc1 : cond0_1 i) (x0 : Vec F S10000x3 .f32) (x1 : Vec F S10000x3 .f32) (x2 : Vec F S3x3 .f32) (x3 : Vec F S3x3 .f32) (xs0 : Vec F S1x3 .f32) :
    sout0_C_0 c i arg1 harg1 arg2 harg2 arg3 harg3 arg4 harg4 arg5 harg5 arg6 harg6 hc0 hc1 x0 x1 x2 x3 xs0 = k0_pay2 x0 x2 x1 x3 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg6.read_unread,
    View.ld_unit_zero (S := S10000x3) hz, View.ld_unit_zero (S := S3x3) hz, View.ld_unit_zero (S := S1x3) hz]

/-- and the output row ends at the softmax payload of that scratch row. -/
theorem out_C (c : Dev nD) (i : grid0.Coords) (arg1 : Memref sig .tc .vmem S10000x3 .f32) (harg1 : arg1.IsWhole) (arg2 : Memref sig .tc .vmem S10000x3 .f32) (harg2 : arg2.IsWhole) (arg3 : Memref sig .tc .vmem S3x3 .f32) (harg3 : arg3.IsWhole) (arg4 : Memref sig .tc .vmem S3x3 .f32) (harg4 : arg4.IsWhole) (arg5 : Memref sig .tc .vmem S1x3 .f32) (harg5 : arg5.IsWhole) (arg6 : Memref sig .tc .vmem S1x3 .f32) (harg6 : arg6.IsWhole) (hc0 : ¬cond0_0 i) (hc1 : cond0_1 i) (x0 : Vec F S10000x3 .f32) (x1 : Vec F S10000x3 .f32) (x2 : Vec F S3x3 .f32) (x3 : Vec F S3x3 .f32) (xs0 : Vec F S1x3 .f32) :
    out0_C_4 c i arg1 harg1 arg2 harg2 arg3 harg3 arg4 harg4 arg5 harg5 arg6 harg6 hc0 hc1 x0 x1 x2 x3 xs0 = k0_pay3 (k0_pay2 x0 x2 x1 x3 xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz, View.readCov_unit_zero (S := S1x3) _ hz]
  simp only [View.readAt_eq_ld, harg1.read_unread, harg2.read_unread, harg3.read_unread, harg4.read_unread, harg6.read_unread,
    View.ld_unit_zero (S := S10000x3) hz, View.ld_unit_zero (S := S3x3) hz, View.ld_unit_zero (S := S1x3) hz]

end Cert.KernelIdeal.Cases

end
-- ==== Proof.BlockPayload.lean ====
/-
  The kernel body's two stores into its carried [1,3] scratch, read at column `j` on the extended reals.

  The reset store writes zero. The accumulating store writes, at column `j`, what the scratch held there plus the
  block's column sum: over the block's 10000 rows `r`, `max (∑ₖ x(r,k)·W(k,j) + ∑ₖ a(r,k)·M(k,j)) 0` — the two
  3×3 products into zero accumulators are plain sums over the contracted coordinate, the lane reduction over
  axis 0 is the sum over the rows, and the cast of the [3] result to [1,3] only renames the index.
-/
import proofs.«115697_j63917703299187_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockPayload

open Cert.KernelIdeal Cert.KernelIdeal.Gen Idealize.ShloMosaic Idealize.ShloMosaic.ValueIdx

/-- One row's contribution at column `j`: the rectified sum of the two 3-term dot products. -/
def rowTerm (xb ab : FVec Ideal S10000x3 .f32) (W M : FVec Ideal S3x3 .f32) (r : Fin 10000) (j : Fin 3) : EReal :=
  max ((∑ k : Fin 3, xb (ix2 r k) * W (ix2 k j)) + ∑ k : Fin 3, ab (ix2 r k) * M (ix2 k j))
    (Ideal.ofBits .f32 0x00000000#32)

/-- A block's column sum at column `j`. -/
def blockSum (xb ab : FVec Ideal S10000x3 .f32) (W M : FVec Ideal S3x3 .f32) (j : Fin 3) : EReal :=
  ∑ r : Fin 10000, rowTerm xb ab W M r j

theorem lhs_0 (i : S10000x3.Idx) (q : dot_S10000x3_S3x3_S10000x3_1_0_0_1_n_n.contr.Idx) :
    (dot_S10000x3_S3x3_S10000x3_1_0_0_1_n_n.lhsIdx i q 0).val = (i 0).val := by
  unfold DotDims.lhsIdx
  rw [dif_neg (show ¬(0 : Fin S10000x3.rank) ∈ dot_S10000x3_S3x3_S10000x3_1_0_0_1_n_n.lhsBatch by decide),
    dif_pos (show (0 : Fin S10000x3.rank) ∈ dot_S10000x3_S3x3_S10000x3_1_0_0_1_n_n.lhsNonContracting by decide)]
  rfl
theorem lhs_1 (i : S10000x3.Idx) (q : dot_S10000x3_S3x3_S10000x3_1_0_0_1_n_n.contr.Idx) :
    (dot_S10000x3_S3x3_S10000x3_1_0_0_1_n_n.lhsIdx i q 1).val = (q ⟨0, by decide⟩).val :=
  dot_S10000x3_S3x3_S10000x3_1_0_0_1_n_n.lhsIdx_val_of_single rfl i q
theorem rhs_0 (i : S10000x3.Idx) (q : dot_S10000x3_S3x3_S10000x3_1_0_0_1_n_n.contr.Idx) :
    (dot_S10000x3_S3x3_S10000x3_1_0_0_1_n_n.rhsIdx i q 0).val = (q ⟨0, by decide⟩).val :=
  dot_S10000x3_S3x3_S10000x3_1_0_0_1_n_n.rhsIdx_val_of_single rfl i q
theorem rhs_1 (i : S10000x3.Idx) (q : dot_S10000x3_S3x3_S10000x3_1_0_0_1_n_n.contr.Idx) :
    (dot_S10000x3_S3x3_S10000x3_1_0_0_1_n_n.rhsIdx i q 1).val = (i 1).val := by
  unfold DotDims.rhsIdx
  rw [dif_neg (show ¬(1 : Fin S3x3.rank) ∈ dot_S10000x3_S3x3_S10000x3_1_0_0_1_n_n.rhsBatch by decide),
    dif_pos (show (1 : Fin S3x3.rank) ∈ dot_S10000x3_S3x3_S10000x3_1_0_0_1_n_n.rhsNonContracting by decide)]
  rfl

/-- A [10000,3] block times a [3,3] matrix into the zero accumulator, at `(r, j)`: the sum over the contracted
    coordinate of the products. -/
theorem matmul_zero_apply (xb : FVec Ideal S10000x3 .f32) (W : FVec Ideal S3x3 .f32) (r : Fin 10000) (j : Fin 3) :
    matmul dot_S10000x3_S3x3_S10000x3_1_0_0_1_n_n none xb W (constant (F := Ideal) S10000x3 .f32 0x00000000#32) (ix2 r j)
      = ∑ k : Fin 3, xb (ix2 r k) * W (ix2 k j) := by
  simp only [matmul]
  rw [Ideal.matmul_constant_zero_apply,
    ← Equiv.sum_comp (contrEquiv1 dot_S10000x3_S3x3_S10000x3_1_0_0_1_n_n 3 rfl rfl).symm]
  refine Finset.sum_congr rfl fun k _ => ?_
  have hk := contrEquiv1_symm_val dot_S10000x3_S3x3_S10000x3_1_0_0_1_n_n 3 rfl rfl k
  have el : dot_S10000x3_S3x3_S10000x3_1_0_0_1_n_n.lhsIdx (ix2 r j)
      ((contrEquiv1 dot_S10000x3_S3x3_S10000x3_1_0_0_1_n_n 3 rfl rfl).symm k) = ix2 r k :=
    funext fun a => Fin.ext (by
      match a with
      | ⟨0, _⟩ => exact lhs_0 _ _
      | ⟨1, _⟩ => exact (lhs_1 _ _).trans hk)
  have er : dot_S10000x3_S3x3_S10000x3_1_0_0_1_n_n.rhsIdx (ix2 r j)
      ((contrEquiv1 dot_S10000x3_S3x3_S10000x3_1_0_0_1_n_n 3 rfl rfl).symm k) = ix2 k j :=
    funext fun a => Fin.ext (by
      match a with
      | ⟨0, _⟩ => exact (rhs_0 _ _).trans hk
      | ⟨1, _⟩ => exact rhs_1 _ _)
  rw [el, er]

/-- The lane reduction of a [10000,3] block over its rows, at column `j`: the sum over the 10000 rows. -/
theorem colSum_apply (h : FVec Ideal S10000x3 .f32) (hφ : FKind.Formats .f32)
    (hacc : (0x00000000#32 : BitVec 32) = FKind.add.neutral .f32 hφ) (j : Fin 3) :
    multiReduction .add [0] S3 h 0x00000000#32 reduces_S10000x3_S3 hφ hacc (ix1 j) = ∑ r : Fin 10000, h (ix2 r j) :=
  (Ideal.multiReduction_add_single h 0x00000000#32 reduces_S10000x3_S3 hφ hacc (ix1 j)).trans
    (Finset.sum_congr rfl fun r _ => congrArg h (funext fun a => Fin.ext (by
      match a with
      | ⟨0, _⟩ => rfl
      | ⟨1, _⟩ => rfl)))

/-- The reset payload is zero everywhere. -/
theorem pay1_apply (i : S1x3.Idx) : k0_pay1 (F := Ideal) i = Ideal.ofBits .f32 0x00000000#32 := by
  unfold k0_pay1
  rw [shapeCast_self]
  rfl

/-- The accumulating payload at column `j`: what the scratch held there plus the block's column sum. -/
theorem pay2_apply (xb : FVec Ideal S10000x3 .f32) (W : FVec Ideal S3x3 .f32) (ab : FVec Ideal S10000x3 .f32)
    (M : FVec Ideal S3x3 .f32) (acc : FVec Ideal S1x3 .f32) (j : Fin 3) :
    k0_pay2 (F := Ideal) xb W ab M acc (ix2 (0 : Fin 1) j) = acc (ix2 (0 : Fin 1) j) + blockSum xb ab W M j := by
  unfold k0_pay2
  rw [shapeCast_self, shapeCast_self]
  rw [addf_apply]
  refine congrArg (acc (ix2 (0 : Fin 1) j) + ·) ?_
  rw [shapeCast_a_1a_apply]
  refine (colSum_apply _ _ _ j).trans ?_
  unfold blockSum
  refine Finset.sum_congr rfl fun r _ => ?_
  rw [maximumf_apply, addf_apply, matmul_zero_apply, matmul_zero_apply]
  rfl

end Cert.KernelIdeal.BlockPayload

end
-- ==== Proof.LibChunkSum.lean ====
/-
  A sum over the positions `0 … N - 1`, `N = q·n`, regrouped into `q` chunks of `n` consecutive positions:
  `∑ R, f R = ∑ t, ∑ r, f (t·n + r)`, in any additive commutative monoid. Nothing is asked of the summands: on
  the extended reals only commutativity and associativity of `+` are used, so infinite entries are allowed.
-/
import Mathlib.Algebra.BigOperators.Fin
import Mathlib.Logic.Equiv.Fin.Basic

namespace ChunkSum

open Finset

/-- Offset `r` of chunk `t` lies among the `N = q·n` positions. -/
theorem pos_lt {q n N : ℕ} (hN : q * n = N) (t : Fin q) (r : Fin n) : t.val * n + r.val < N := by
  have ht := t.isLt
  have hr := r.isLt
  calc t.val * n + r.val < t.val * n + n := by omega
    _ = (t.val + 1) * n := (Nat.succ_mul _ _).symm
    _ ≤ q * n := Nat.mul_le_mul_right n ht
    _ = N := hN

/-- Position `t·n + r`: offset `r` of chunk `t`. -/
def pos {q n N : ℕ} (hN : q * n = N) (t : Fin q) (r : Fin n) : Fin N := ⟨t.val * n + r.val, pos_lt hN t r⟩

@[simp] theorem pos_val {q n N : ℕ} (hN : q * n = N) (t : Fin q) (r : Fin n) :
    (pos hN t r).val = t.val * n + r.val := rfl

/-- The one sum over all `N = q·n` positions is the sum over the chunks of each chunk's sum. -/
theorem sum_chunks {M : Type*} [AddCommMonoid M] {q n N : ℕ} (hN : q * n = N) (f : Fin N → M) :
    ∑ R : Fin N, f R = ∑ t : Fin q, ∑ r : Fin n, f (pos hN t r) := by
  subst hN
  rw [← Fintype.sum_prod_type']
  refine (Fintype.sum_equiv finProdFinEquiv _ _ ?_).symm
  rintro ⟨t, r⟩
  refine congrArg f (Fin.ext ?_)
  simp [finProdFinEquiv, pos, Nat.mul_comm, Nat.add_comm]

end ChunkSum
-- ==== Proof.ColumnSumSpec.lean ====
/-
  The readout both programs compute before the softmax, over literal shapes: for node features `X`, aggregated
  neighbour features `A` (both [1000000,3]) and weights `W`, `M` ([3,3]), row `R` contributes at column `j`
  `max (∑ₖ X(R,k)·W(k,j) + ∑ₖ A(R,k)·M(k,j)) 0`, and the readout is the sum of the contributions over all rows.
  The kernel adds the rows up in 100 chunks of 10000; on the extended reals that is the same sum
  (commutativity and associativity of `+` only, so nothing is asked of the entries).
-/
import proofs.«115697_j63917703299187_1_alg».proof.Proof.LibChunkSum
import Idealize.ShloMosaic.PureOps.Ideal
import Idealize.ShloMosaic.Lib.ValueIdx

noncomputable section

namespace Cert.ColumnSumSpec

open Idealize.ShloMosaic Idealize.ShloMosaic.ValueIdx

/-- The zero word the rectifier compares against and the sums start from. -/
abbrev zero : EReal := Ideal.ofBits .f32 0x00000000#32

/-- Row `R`'s contribution at column `j`. -/
def rowTerm (X A : (⟨2, ![1000000, 3]⟩ : Shape).Idx → EReal) (W M : (⟨2, ![3, 3]⟩ : Shape).Idx → EReal)
    (R : Fin 1000000) (j : Fin 3) : EReal :=
  max ((∑ k : Fin 3, X (ix2 R k) * W (ix2 k j)) + ∑ k : Fin 3, A (ix2 R k) * M (ix2 k j)) zero

/-- The readout at column `j`: every row's contribution added up. -/
def colSum (X A : (⟨2, ![1000000, 3]⟩ : Shape).Idx → EReal) (W M : (⟨2, ![3, 3]⟩ : Shape).Idx → EReal)
    (j : Fin 3) : EReal :=
  ∑ R : Fin 1000000, rowTerm X A W M R j

/-- 100 chunks of 10000 rows make the 1000000 rows. -/
theorem chunks : 100 * 10000 = 1000000 := by decide

/-- Row `r` of chunk `t`. -/
abbrev rowOf (t : Fin 100) (r : Fin 10000) : Fin 1000000 := ChunkSum.pos chunks t r

/-- Chunk `t`'s part of the readout at column `j`. -/
def chunkSum (X A : (⟨2, ![1000000, 3]⟩ : Shape).Idx → EReal) (W M : (⟨2, ![3, 3]⟩ : Shape).Idx → EReal)
    (t : Fin 100) (j : Fin 3) : EReal :=
  ∑ r : Fin 10000, rowTerm X A W M (rowOf t r) j

/-- The readout is the sum of the chunks' parts. -/
theorem colSum_eq_chunks (X A : (⟨2, ![1000000, 3]⟩ : Shape).Idx → EReal) (W M : (⟨2, ![3, 3]⟩ : Shape).Idx → EReal)
    (j : Fin 3) : colSum X A W M j = ∑ t : Fin 100, chunkSum X A W M t j :=
  ChunkSum.sum_chunks chunks fun R => rowTerm X A W M R j

end Cert.ColumnSumSpec

end
-- ==== Proof.Blocks.lean ====
/-
  What the body is handed at grid point `t`. The x window and the aggregate window have [10000,3] blocks with
  index map `t ↦ (t, 0)`: row `r`, column `k` of the block is row `t·10000 + r`, column `k` of the array as the
  region finds it. The two weight windows have the whole [3,3] array as their one block. So the body's column sum
  over its block is chunk `t`'s part of the readout over the arrays as the region finds them.
-/
import proofs.«115697_j63917703299187_1_alg».proof.Proof.Gen.KernelIdeal.Frame
import proofs.«115697_j63917703299187_1_alg».proof.Proof.BlockPayload
import proofs.«115697_j63917703299187_1_alg».proof.Proof.ColumnSumSpec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block index maps, decided once over the grid. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Entry `(r, k)` of the x block at point `t` is entry `(t·10000 + r, k)` of the x array. -/
theorem xblock_apply (c : Dev nD) (t : Fin cfg0.N) (r : Fin 10000) (k : Fin 3) (R : Fin 1000000)
    (hR : R.val = t.val * 10000 + r.val) :
    (iblk m c 0 t : Vec F S10000x3 .f32) (ix2 r k) = (V m c main_arg0 : Vec F S1000000x3 .f32) (ix2 R k) := by
  unfold iblk
  rw [View.read_apply]
  show (V m c main_arg0 : Vec F S1000000x3 .f32) _ = (V m c main_arg0 : Vec F S1000000x3 .f32) (ix2 R k)
  refine congrArg (V m c main_arg0 : Vec F S1000000x3 .f32) (funext fun a => Fin.ext ?_)
  match a with
  | ⟨0, _⟩ =>
    show win0_0.index t 0 * 10000 + 1 * r.val = R.val
    rw [(index0 t).1, hR]; omega
  | ⟨1, _⟩ =>
    show win0_0.index t 1 * 3 + 1 * k.val = k.val
    rw [(index0 t).2]; omega

/-- Entry `(r, k)` of the aggregate block at point `t` is entry `(t·10000 + r, k)` of the aggregate array. -/
theorem ablock_apply (c : Dev nD) (t : Fin cfg0.N) (r : Fin 10000) (k : Fin 3) (R : Fin 1000000)
    (hR : R.val = t.val * 10000 + r.val) :
    (iblk m c 1 t : Vec F S10000x3 .f32) (ix2 r k) = (V m c main_v9 : Vec F S1000000x3 .f32) (ix2 R k) := by
  unfold iblk
  rw [View.read_apply]
  show (V m c main_v9 : Vec F S1000000x3 .f32) _ = (V m c main_v9 : Vec F S1000000x3 .f32) (ix2 R k)
  refine congrArg (V m c main_v9 : Vec F S1000000x3 .f32) (funext fun a => Fin.ext ?_)
  match a with
  | ⟨0, _⟩ =>
    show win0_1.index t 0 * 10000 + 1 * r.val = R.val
    rw [(index1 t).1, hR]; omega
  | ⟨1, _⟩ =>
    show win0_1.index t 1 * 3 + 1 * k.val = k.val
    rw [(index1 t).2]; omega

/-- The W window's one block is the W array. -/
theorem wblock_apply (c : Dev nD) (t : Fin cfg0.N) (a b : Fin 3) :
    (iblk m c 2 t : Vec F S3x3 .f32) (ix2 a b) = (V m c main_arg1 : Vec F S3x3 .f32) (ix2 a b) := by
  unfold iblk
  rw [View.read_apply]
  show (V m c main_arg1 : Vec F S3x3 .f32) _ = (V m c main_arg1 : Vec F S3x3 .f32) (ix2 a b)
  refine congrArg (V m c main_arg1 : Vec F S3x3 .f32) (funext fun d => Fin.ext ?_)
  match d with
  | ⟨0, _⟩ =>
    show win0_2.index t 0 * 3 + 1 * a.val = a.val
    rw [(index2 t).1]; omega
  | ⟨1, _⟩ =>
    show win0_2.index t 1 * 3 + 1 * b.val = b.val
    rw [(index2 t).2]; omega

/-- The M window's one block is the M array. -/
theorem mblock_apply (c : Dev nD) (t : Fin cfg0.N) (a b : Fin 3) :
    (iblk m c 3 t : Vec F S3x3 .f32) (ix2 a b) = (V m c main_arg2 : Vec F S3x3 .f32) (ix2 a b) := by
  unfold iblk
  rw [View.read_apply]
  show (V m c main_arg2 : Vec F S3x3 .f32) _ = (V m c main_arg2 : Vec F S3x3 .f32) (ix2 a b)
  refine congrArg (V m c main_arg2 : Vec F S3x3 .f32) (funext fun d => Fin.ext ?_)
  match d with
  | ⟨0, _⟩ =>
    show win0_3.index t 0 * 3 + 1 * a.val = a.val
    rw [(index3 t).1]; omega
  | ⟨1, _⟩ =>
    show win0_3.index t 1 * 3 + 1 * b.val = b.val
    rw [(index3 t).2]; omega

/-- A block row's contribution is the array row's, once the block's entries are the array's. -/
theorem rowTerm_eq (xb ab : FVec Ideal S10000x3 .f32) (Wb Mb : FVec Ideal S3x3 .f32)
    (X A : (⟨2, ![1000000, 3]⟩ : Shape).Idx → EReal) (W M : (⟨2, ![3, 3]⟩ : Shape).Idx → EReal)
    (r : Fin 10000) (R : Fin 1000000) (j : Fin 3)
    (hx : ∀ k : Fin 3, xb (ix2 r k) = X (ix2 R k)) (ha : ∀ k : Fin 3, ab (ix2 r k) = A (ix2 R k))
    (hW : ∀ k : Fin 3, Wb (ix2 k j) = W (ix2 k j)) (hM : ∀ k : Fin 3, Mb (ix2 k j) = M (ix2 k j)) :
    BlockPayload.rowTerm xb ab Wb Mb r j = ColumnSumSpec.rowTerm X A W M R j := by
  unfold BlockPayload.rowTerm ColumnSumSpec.rowTerm
  simp only [hx, ha, hW, hM]

end Cert.KernelIdeal.Blocks

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The body's column sum over its blocks at point `t` is chunk `t`'s part of the readout. -/
theorem blockSum_eq_chunkSum (c : Dev nD) (t : Fin cfg0.N) (t' : Fin 100) (ht : t'.val = t.val) (j : Fin 3) :
    BlockPayload.blockSum (iblk m c 0 t) (iblk m c 1 t) (iblk m c 2 t) (iblk m c 3 t) j
      = ColumnSumSpec.chunkSum (V m c main_arg0 : Vec Ideal S1000000x3 .f32) (V m c main_v9 : Vec Ideal S1000000x3 .f32)
          (V m c main_arg1 : Vec Ideal S3x3 .f32) (V m c main_arg2 : Vec Ideal S3x3 .f32) t' j := by
  unfold BlockPayload.blockSum ColumnSumSpec.chunkSum
  refine Finset.sum_congr rfl fun r _ => ?_
  have hR : (ColumnSumSpec.rowOf t' r).val = t.val * 10000 + r.val := by
    rw [ChunkSum.pos_val, ht]
  exact rowTerm_eq _ _ _ _ _ _ _ _ r (ColumnSumSpec.rowOf t' r) j
    (fun k => xblock_apply m c t r k _ hR) (fun k => ablock_apply m c t r k _ hR)
    (fun k => wblock_apply m c t k j) (fun k => mblock_apply m c t k j)

end Cert.KernelIdeal.Blocks

end
-- ==== Proof.Accumulate.lean ====
/-
  The carried scratch row after the grid. Point 0 stores zero and adds chunk 0's part of the readout; every later
  point adds its own chunk's part to what the point before left. So after point `n` the row holds, at column `j`,
  `0 + ∑_{s ≤ n}` of chunk `s`'s part — read off the generated fold of the scratch over the grid, by induction
  on the point, never by enumerating the 100 points.
-/
import proofs.«115697_j63917703299187_1_alg».proof.Proof.Gen.KernelIdeal.Value
import proofs.«115697_j63917703299187_1_alg».proof.Proof.Cases
import proofs.«115697_j63917703299187_1_alg».proof.Proof.Blocks
import Idealize.ShloMosaic.Lib.Pipeline.Value

noncomputable section

namespace Cert.KernelIdeal.Accumulate

open Cert.KernelIdeal Cert.KernelIdeal.Gen Cert.KernelIdeal.Value Idealize.ShloMosaic Idealize.ShloMosaic.TcCoe Idealize.SL.Sem
open Idealize.ShloMosaic.ValueIdx

variable (m : (ℓ : Loc nD τ sig) → Buf (Elt Ideal) ℓ)

/-- The column of an index of the [1,3] row. -/
def col (i : S1x3.Idx) : Fin 3 := ⟨(i 1).val, idx2_lt1 i⟩

/-- Every index of the [1,3] row is `(0, its column)`. -/
theorem eq_col (i : S1x3.Idx) : i = ix2 (0 : Fin 1) (col i) :=
  funext fun a => Fin.ext (by
    match a with
    | ⟨0, _⟩ => have := idx2_lt0 i; show (i 0).val = 0; omega
    | ⟨1, _⟩ => rfl)

/-- Chunk `s`'s part of the readout over the arrays as the region finds them, at an index of the row (zero past
    the grid, where it is never used). -/
def part (c : Dev nD) (s : ℕ) (i : S1x3.Idx) : EReal :=
  if h : s < 100 then
    ColumnSumSpec.chunkSum (V m c main_arg0 : Vec Ideal S1000000x3 .f32) (V m c main_v9 : Vec Ideal S1000000x3 .f32)
      (V m c main_arg1 : Vec Ideal S3x3 .f32) (V m c main_arg2 : Vec Ideal S3x3 .f32) ⟨s, h⟩ (col i)
  else 0

/-- What point 0 leaves in the scratch: the accumulating payload of its blocks over the zero row. -/
theorem scAt_zero (c : Dev nD) (hb : 0 < cfg0.N) (acc : Vec Ideal S1x3 .f32) :
    scAt0_0 m c 0 hb acc
      = k0_pay2 (iblk m c 0 ⟨0, hb⟩) (iblk m c 2 ⟨0, hb⟩) (iblk m c 1 ⟨0, hb⟩) (iblk m c 3 ⟨0, hb⟩) (k0_pay1 (F := Ideal)) := by
  unfold scAt0_0
  rw [dif_pos (Nat.zero_mod 100), dif_neg (by decide)]
  exact Cases.scratch_A ..

/-- What a later point leaves in the scratch: the accumulating payload of its blocks over what the point before left. -/
theorem scAt_pos (c : Dev nD) (n : ℕ) (hb : n < cfg0.N) (hn : 0 < n) (acc : Vec Ideal S1x3 .f32) :
    scAt0_0 m c n hb acc
      = k0_pay2 (iblk m c 0 ⟨n, hb⟩) (iblk m c 2 ⟨n, hb⟩) (iblk m c 1 ⟨n, hb⟩) (iblk m c 3 ⟨n, hb⟩) acc := by
  have hN : n < 100 := lt_of_lt_of_eq hb (show cfg0.N = 100 from N_0)
  have h0 : ¬n % 100 = 0 := by omega
  unfold scAt0_0
  rw [dif_neg h0]
  by_cases h1 : n % 100 = 99
  · rw [dif_pos h1]
    exact Cases.scratch_C ..
  · rw [dif_neg h1]
    exact Cases.scratch_B ..

/-- The accumulating payload of point `n`'s blocks, at an index: what was there plus chunk `n`'s part. -/
theorem step_apply (c : Dev nD) (n : ℕ) (hb : n < cfg0.N) (acc : Vec Ideal S1x3 .f32) (i : S1x3.Idx) :
    k0_pay2 (F := Ideal) (iblk m c 0 ⟨n, hb⟩) (iblk m c 2 ⟨n, hb⟩) (iblk m c 1 ⟨n, hb⟩) (iblk m c 3 ⟨n, hb⟩) acc i
      = acc i + part m c n i := by
  have hN : n < 100 := lt_of_lt_of_eq hb (show cfg0.N = 100 from N_0)
  obtain ⟨j, rfl⟩ : ∃ j : Fin 3, i = ix2 (0 : Fin 1) j := ⟨col i, eq_col i⟩
  refine (BlockPayload.pay2_apply _ _ _ _ acc j).trans ?_
  refine congrArg (acc (ix2 (0 : Fin 1) j) + ·) ?_
  unfold part
  rw [dif_pos hN]
  exact Blocks.blockSum_eq_chunkSum m c ⟨n, hb⟩ ⟨n, hN⟩ rfl j

/-- After point `n` the scratch holds, at every index, zero plus the parts of chunks `0 … n`. -/
theorem scratch_after (c : Dev nD) (n : ℕ) (hn : n < cfg0.N) (i : S1x3.Idx) :
    (outsAt0 m c n hn).2 i = ColumnSumSpec.zero + ∑ s ∈ Finset.range (n + 1), part m c s i := by
  have hN : n < 100 := lt_of_lt_of_eq hn (show cfg0.N = 100 from N_0)
  rw [soutsAt0_0_sweep m c n hn]
  have h := Pipeline.accAt_add_apply (N := cfg0.N)
    (fun n h => scAt0_0 m c n h (VS0_0.read (Elt Ideal) VS0_0.junk)) (scAt0_0 m c)
    (fun _ => ColumnSumSpec.zero) (part m c) 0 99
    (fun h i => by
      rw [scAt_zero m c h]
      refine (step_apply m c 0 h _ i).trans ?_
      rw [BlockPayload.pay1_apply])
    (fun k h acc i hk _ => by
      rw [scAt_pos m c k h hk acc]
      exact step_apply m c k h acc i)
    n (by omega) (by omega) i
  simpa only [Nat.zero_add] using h

end Cert.KernelIdeal.Accumulate

end
-- ==== Proof.SoftmaxSpec.lean ====
/-
  The softmax of a row of three extended reals, as both programs compute it: subtract the row's maximum (taken
  from `-∞`, and once more against `-∞`), exponentiate, divide by the sum of the three exponentials.
-/
import Idealize.ShloMosaic.PureOps.Ideal

noncomputable section

namespace Cert.SoftmaxSpec

open Idealize.ShloMosaic

/-- The word both programs start the maximum from: `-∞`. -/
abbrev negInf : EReal := Ideal.ofBits .f32 0xFF800000#32

/-- The row's maximum as it is computed: the fold of `max` from `-∞` over the three entries, then `max` with `-∞`. -/
def rowMax (s : Fin 3 → EReal) : EReal := max negInf ((Finset.univ : Finset (Fin 3)).fold max negInf s)

/-- The shifted exponential of entry `j`. -/
def shiftedExp (s : Fin 3 → EReal) (j : Fin 3) : EReal := Ideal.exp (s j - rowMax s)

/-- The softmax of the row at entry `j`. -/
def softmax3 (s : Fin 3 → EReal) (j : Fin 3) : EReal :=
  Ideal.div (shiftedExp s j) (∑ k : Fin 3, shiftedExp s k)

end Cert.SoftmaxSpec

end
-- ==== Proof.KernelSoftmax.lean ====
/-
  The kernel body's last store: the softmax of the [1,3] scratch row. Its lane maximum over axis 1 is the fold of
  `max` from `-∞` over the row's three entries, its lane sum the sum of the three exponentials; the casts
  [1] → [1,1] and the broadcasts [1,1] → [1,3] only carry those two scalars to every column.
-/
import proofs.«115697_j63917703299187_1_alg».proof.Proof.Gen.KernelIdeal.Skeleton
import proofs.«115697_j63917703299187_1_alg».proof.Proof.SoftmaxSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KernelSoftmax

open Cert.KernelIdeal Cert.KernelIdeal.Gen Idealize.ShloMosaic Idealize.ShloMosaic.ValueIdx Cert.SoftmaxSpec

/-- The row of a [1,3] array as a function of the column. -/
abbrev row (v : FVec Ideal S1x3 .f32) : Fin 3 → EReal := fun k => v (ix2 (0 : Fin 1) k)

/-- Inserting column `k` on the reduced axis of the one index of [1] gives `(0, k)`. -/
theorem lift_eq (k : Fin 3) : reduces_S1x3_S1.lift (ix1 (0 : Fin 1)) k = ix2 (0 : Fin 1) k :=
  funext fun a => Fin.ext (by match a with | ⟨0, _⟩ => rfl | ⟨1, _⟩ => rfl)

/-- A [1] vector cast to [1,1] and broadcast to [1,3] reads its one entry at every column. -/
theorem splat_apply (u : FVec Ideal S1 .f32) (j : Fin 3) :
    broadcastTo S1x3 (shapeCast S1x1 u shapeCasts_S1_S1x1) broadcasts_S1x1_S1x3 (ix2 (0 : Fin 1) j) = u (ix1 (0 : Fin 1)) := by
  refine (broadcastTo_apply _ broadcasts_S1x1_S1x3 (ix2 (0 : Fin 1) j) (ix2 (0 : Fin 1) (0 : Fin 1)) fun a => ?_).trans ?_
  · match a with
    | ⟨0, _⟩ => rfl
    | ⟨1, _⟩ => rfl
  · exact shapeCast_a_1a_apply u shapeCasts_S1_S1x1 0 0

/-- The lane maximum, then `max` with `-∞`: the row's maximum. -/
theorem max_apply (v : FVec Ideal S1x3 .f32) (hφ : FKind.Formats .f32)
    (hacc : (0xFF800000#32 : BitVec 32) = FKind.maximumf.neutral .f32 hφ) :
    maximumf (broadcast S1 (Scalar.ofBits (F := Ideal) .f32 0xFF800000#32))
      (multiReduction .maximumf [1] S1 v 0xFF800000#32 reduces_S1x3_S1 hφ hacc) (ix1 (0 : Fin 1)) = rowMax (row v) := by
  rw [maximumf_apply]
  refine congrArg (max negInf ·) ?_
  refine (Ideal.multiReduction_maximumf_single v 0xFF800000#32 reduces_S1x3_S1 hφ hacc (ix1 (0 : Fin 1))).trans ?_
  refine congrArg (fun f => (Finset.univ : Finset (Fin 3)).fold max negInf f) ?_
  funext k
  exact congrArg v (lift_eq k)

/-- The lane sum of a [1,3] row: the sum of its three entries. -/
theorem laneSum_apply (h : FVec Ideal S1x3 .f32) (hφ : FKind.Formats .f32)
    (hacc : (0x00000000#32 : BitVec 32) = FKind.add.neutral .f32 hφ) :
    multiReduction .add [1] S1 h 0x00000000#32 reduces_S1x3_S1 hφ hacc (ix1 (0 : Fin 1)) = ∑ k : Fin 3, h (ix2 (0 : Fin 1) k) :=
  (Ideal.multiReduction_add_single h 0x00000000#32 reduces_S1x3_S1 hφ hacc (ix1 (0 : Fin 1))).trans
    (Finset.sum_congr rfl fun k _ => congrArg h (lift_eq k))

/-- The softmax payload at column `j`. -/
theorem pay3_apply (v : FVec Ideal S1x3 .f32) (j : Fin 3) :
    k0_pay3 (F := Ideal) v (ix2 (0 : Fin 1) j) = softmax3 (row v) j := by
  unfold k0_pay3
  -- the shifted exponentials, column by column
  have hexp : ∀ k : Fin 3,
      exp (subf v (broadcastTo S1x3 (shapeCast S1x1
        (maximumf (broadcast S1 (Scalar.ofBits (F := Ideal) .f32 0xFF800000#32))
          (multiReduction .maximumf [1] S1 v 0xFF800000#32 reduces_S1x3_S1 (.inl rfl) rfl)) shapeCasts_S1_S1x1)
        broadcasts_S1x1_S1x3)) (ix2 (0 : Fin 1) k) = shiftedExp (row v) k := fun k => by
    show Ideal.exp (v (ix2 (0 : Fin 1) k) - _) = _
    unfold shiftedExp
    refine congrArg (fun z => Ideal.exp (v (ix2 (0 : Fin 1) k) - z)) ?_
    exact (splat_apply _ k).trans (max_apply v _ _)
  show Ideal.div _ _ = _
  unfold softmax3
  refine congr (congrArg Ideal.div (hexp j)) ?_
  refine (splat_apply _ j).trans ?_
  refine (laneSum_apply _ _ _).trans ?_
  exact Finset.sum_congr rfl fun k _ => hexp k

end Cert.KernelIdeal.KernelSoftmax

end
-- ==== Proof.KernelValue.lean ====
/-
  What the kernel's result array holds after the run. The output window's one block is the whole [1,3] array; it
  is written back once, after the last grid point, where the body has stored the softmax payload of the scratch
  row it has just completed. So the result array is the softmax of the row `0 + readout` over the arrays as the
  region finds them.
-/
import proofs.«115697_j63917703299187_1_alg».proof.Proof.Gen.KernelIdeal.Value
import proofs.«115697_j63917703299187_1_alg».proof.Proof.Cases
import proofs.«115697_j63917703299187_1_alg».proof.Proof.Accumulate
import proofs.«115697_j63917703299187_1_alg».proof.Proof.KernelSoftmax
import Idealize.ShloMosaic.Lib.Pipeline.Value
import Idealize.ShloMosaic.Lib.Tactic

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.SoftmaxSpec

variable (m : (ℓ : Loc nD τ sig) → Buf (Elt Ideal) ℓ) (ρ : Dev nD → PrngReg)

theorem last_lt : 99 < cfg0.N := by rw [show cfg0.N = 100 from N_0]; decide

/-- The last grid point (used only for the schedule's decided facts, never as an argument of the run's contents). -/
abbrev last : Fin cfg0.N := ⟨99, last_lt⟩

/-- The scratch row after the last point, in closed form: zero plus the parts of all 100 chunks. -/
def accRow (c : Dev nD) : Vec Ideal S1x3 .f32 := fun i =>
  ColumnSumSpec.zero + ∑ s ∈ Finset.range 100, Accumulate.part m c s i

/-- The result: the softmax payload of that row, as contents of the result array. -/
def result (c : Dev nD) : Buf (Elt Ideal) ((c : Thread nD τ).loc main_v10) := k0_pay3 (F := Ideal) (accRow m c)

/-- At the last point the output's staging buffer holds the softmax payload of what the scratch holds. -/
theorem out_last (c : Dev nD) (t : Fin cfg0.N) (h1 : t.val % 100 = 99) :
    (outsAt0 m c t.val t.isLt).1 = k0_pay3 (F := Ideal) ((outsAt0 m c t.val t.isLt).2) := by
  have h0 : ¬t.val % 100 = 0 := by omega
  rw [outsAt0_C m c t h0 h1]
  dsimp only
  rw [Cases.out_C, Cases.scratch_C]

/-- At the last point the scratch holds the closed-form row. -/
theorem scratch_last (c : Dev nD) (t : Fin cfg0.N) (h1 : t.val % 100 = 99) :
    (outsAt0 m c t.val t.isLt).2 = accRow m c := by
  have hN : t.val < 100 := lt_of_lt_of_eq t.isLt (show cfg0.N = 100 from N_0)
  have e : t.val + 1 = 100 := by omega
  funext i
  refine (Accumulate.scratch_after m c t.val t.isLt i).trans ?_
  rw [e]
  rfl

/-- The output window's block index is (0, 0) at every point (decided once over the grid). -/
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The one write-back, at the last point, writes the result: the block at index (0, 0) of the [1,3] array, read
    through zero offsets, is the array. -/
theorem flushed_eq (c : Dev nD) (t : Fin cfg0.N) (hf : (cfg0.win 4).flush t = true) :
    (dats m 0 c).flushed 4 t = ((cfg0.win 4).blk t).view.read (Elt Ideal) (result m c) := by
  have h1 : t.val % 100 = 99 := (flush0_4 t).mp hf
  rw [flushed4, out_last m c t h1, scratch_last m c t h1]
  show (cfg0.win 4).cut (grid0.coords t) (result m c) = _
  generalize result m c = X
  have hz' : (fun a => win0_4.index t a * main_v10.ty.shape.size a) = fun _ => 0 :=
    funext fun a => by
      match a with
      | ⟨0, _⟩ => show win0_4.index t 0 * 1 = 0; rw [(index4 t).1]
      | ⟨1, _⟩ => show win0_4.index t 1 * 3 = 0; rw [(index4 t).2]
  exact (Memref.read_access_unit_zero (Elt Ideal) main_v10 hz' (fun a => by rw [congrFun hz' a]; simp) X).symm

/-- So the result array ends holding the result (the last point's block covers it). -/
theorem final (c : Dev nD) : (dats m 0 c).arrAt 4 cfg0.N = result m c :=
  (dats m 0 c).arrAt_eq_of_cover 4 (result m c) (flushed_eq m c) fun i =>
    ⟨last, (flush0_4 last).mpr rfl, by
      show i ∈ ((View.whole main_v10).slice (win0_4.rect last)).set
      rw [View.set_slice_whole, Rect.mem_set_unit]
      intro a
      have h0 : (i 0 : Nat) < 1 := (i 0).isLt
      have h1 : (i 1 : Nat) < 3 := (i 1).isLt
      match a with
      | ⟨0, _⟩ =>
        show win0_4.index last 0 * win0_4.size 0 ≤ (i 0 : Nat)
          ∧ (i 0 : Nat) < win0_4.index last 0 * win0_4.size 0 + win0_4.xsize (grid0.coords last) 0
        rw [show win0_4.index last 0 * win0_4.size 0 = 0 from by decide +kernel,
          show win0_4.xsize (grid0.coords last) 0 = 1 from by decide +kernel]
        omega
      | ⟨1, _⟩ =>
        show win0_4.index last 1 * win0_4.size 1 ≤ (i 1 : Nat)
          ∧ (i 1 : Nat) < win0_4.index last 1 * win0_4.size 1 + win0_4.xsize (grid0.coords last) 1
        rw [show win0_4.index last 1 * win0_4.size 1 = 0 from by decide +kernel,
          show win0_4.xsize (grid0.coords last) 1 = 3 from by decide +kernel]
        omega⟩

/-- The run, read: the result array at the result, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

/-- The row the softmax is taken of: zero plus the readout over the arrays as the region finds them. -/
abbrev sumRow (c : Dev nD) : Fin 3 → EReal := fun k =>
  ColumnSumSpec.zero + ColumnSumSpec.colSum (V m c main_arg0 : Vec Ideal S1000000x3 .f32)
    (V m c main_v9 : Vec Ideal S1000000x3 .f32) (V m c main_arg1 : Vec Ideal S3x3 .f32)
    (V m c main_arg2 : Vec Ideal S3x3 .f32) k

/-- The scratch row after the grid, at column `k`: zero plus the whole readout (the 100 chunks' parts make it). -/
theorem accRow_apply (c : Dev nD) (k : Fin 3) :
    accRow m c (ix2 (0 : Fin 1) k)
      = ColumnSumSpec.zero + ColumnSumSpec.colSum (V m c main_arg0 : Vec Ideal S1000000x3 .f32)
          (V m c main_v9 : Vec Ideal S1000000x3 .f32) (V m c main_arg1 : Vec Ideal S3x3 .f32)
          (V m c main_arg2 : Vec Ideal S3x3 .f32) k := by
  show ColumnSumSpec.zero + ∑ s ∈ Finset.range 100, Accumulate.part m c s (ix2 (0 : Fin 1) k) = _
  refine congrArg (ColumnSumSpec.zero + ·) ?_
  rw [ColumnSumSpec.colSum_eq_chunks, Finset.sum_range]
  refine Finset.sum_congr rfl fun t _ => ?_
  unfold Accumulate.part
  rw [dif_pos t.isLt]
  have e1 : (⟨t.val, t.isLt⟩ : Fin 100) = t := Fin.ext rfl
  have e2 : Accumulate.col (ix2 (0 : Fin 1) k) = k := Fin.ext rfl
  rw [e1, e2]

/-- The result at `(0, j)`: the softmax of that row. -/
theorem result_apply (c : Dev nD) (j : Fin 3) : result m c (ix2 (0 : Fin 1) j) = softmax3 (sumRow m c) j := by
  unfold result
  refine (KernelSoftmax.pay3_apply (accRow m c) j).trans ?_
  exact congrArg (fun s => softmax3 s j) (funext fun k => accRow_apply m c k)

end Cert.KernelIdeal.KernelValue

end
-- ==== Proof.RefValue.lean ====
/-
  The reference's result on the extended reals, read at `(0, j)`: the softmax of the row whose column `k` is
  `0 + ` the readout at `k` — the sum over all 1000000 rows of the rectified `x·W + agg·M` —, where `agg` is the
  reference's own aggregate stage (the host gather and scatter-add, never opened here).
-/
import proofs.«115697_j63917703299187_1_alg».proof.Proof.Gen.ReferenceIdeal.Read
import proofs.«115697_j63917703299187_1_alg».proof.Proof.SoftmaxSpec
import proofs.«115697_j63917703299187_1_alg».proof.Proof.ColumnSumSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.SoftmaxSpec

variable (x0 : (⟨S1000000x3, .f32⟩ : BufTy).Contents (Elt Ideal)) (x1 x2 : (⟨S3x3, .f32⟩ : BufTy).Contents (Elt Ideal)) (x3 x4 : (⟨S25000000, .i32⟩ : BufTy).Contents (Elt Ideal))

/-- The rectified row of `x·W + agg·M` at `(R, j)`. -/
theorem relu_apply (R : Fin 1000000) (j : Fin 3) :
    val_main_v13 (F := Ideal) x0 x1 x2 x3 x4 (ix2 R j)
      = ColumnSumSpec.rowTerm x0 (val_main_v9 (F := Ideal) x0 x3 x4) x1 x2 R j := by
  rw [val_main_v13_apply, val_main_v12_apply, val_main_v10_apply, val_main_v11_apply, val_main_call0_v0_apply,
    val_main_call0_cst_apply]
  have e1 : ∀ k : Fin 3, lidx_main_v10 (ix2 R j) k = ix2 R k := fun k =>
    funext fun a => Fin.ext (by match a with | ⟨0, _⟩ => rfl | ⟨1, _⟩ => rfl)
  have e2 : ∀ k : Fin 3, ridx_main_v10 (ix2 R j) k = ix2 k j := fun k =>
    funext fun a => Fin.ext (by match a with | ⟨0, _⟩ => rfl | ⟨1, _⟩ => rfl)
  have e3 : ∀ k : Fin 3, lidx_main_v11 (ix2 R j) k = ix2 R k := fun k =>
    funext fun a => Fin.ext (by match a with | ⟨0, _⟩ => rfl | ⟨1, _⟩ => rfl)
  have e4 : ∀ k : Fin 3, ridx_main_v11 (ix2 R j) k = ix2 k j := fun k =>
    funext fun a => Fin.ext (by match a with | ⟨0, _⟩ => rfl | ⟨1, _⟩ => rfl)
  unfold ColumnSumSpec.rowTerm
  simp only [e1, e2, e3, e4, Ideal.maximumf_def, Ideal.addf_def, Ideal.ofBits_def]

/-- The summed row at `(0, k)`: zero plus the readout at `k`. -/
theorem sumRow_apply (k : Fin 3) :
    val_main_v15 (F := Ideal) x0 x1 x2 x3 x4 (ix2 (0 : Fin 1) k)
      = ColumnSumSpec.zero + ColumnSumSpec.colSum x0 (val_main_v9 (F := Ideal) x0 x3 x4) x1 x2 k := by
  rw [val_main_v15_apply, val_main_v14_apply, val_main_cst_1_apply]
  refine congrArg (ColumnSumSpec.zero + ·) ?_
  unfold ColumnSumSpec.colSum
  refine Finset.sum_congr rfl fun R _ => ?_
  have e : idx_main_v14 (idx_main_v15 (ix2 (0 : Fin 1) k)) R = ix2 R k :=
    funext fun a => Fin.ext (by match a with | ⟨0, _⟩ => rfl | ⟨1, _⟩ => rfl)
  rw [e]
  exact relu_apply x0 x1 x2 x3 x4 R k

/-- The summed row as a function of the column. -/
abbrev sumRow : Fin 3 → EReal := fun k => val_main_v15 (F := Ideal) x0 x1 x2 x3 x4 (ix2 (0 : Fin 1) k)

/-- Inserting column `k` on the reduced axis of an index of [1] gives `(0, k)`. -/
theorem lift_eq (h : S1x3.Reduces [1] S1) (i : S1.Idx) (k : Fin 3) : h.lift i k = ix2 (0 : Fin 1) k :=
  funext fun a => Fin.ext (by
    match a with
    | ⟨0, _⟩ => have h1 : (i 0).val < 1 := (i 0).isLt; show (i 0).val = 0; omega
    | ⟨1, _⟩ => rfl)

/-- The host's max-reduce of ANY [1,3] row from `-∞`, at its one index: the fold of `max` over the three entries. -/
theorem reduceMax_apply (S : (⟨S1x3, .f32⟩ : BufTy).Contents (Elt Ideal)) (i : S1.Idx) :
    Host.reduce (FloatOps.maximumf (F := Ideal) (φ := .f32)) S (val_main_cst_2 (F := Ideal)) reducesTo_S1x3_S1_d1 h_S_ i
      = (Finset.univ : Finset (Fin 3)).fold max negInf (fun k => S (ix2 (0 : Fin 1) k)) := by
  refine (Host.reduce_eq_fold_single (FloatOps.maximumf (F := Ideal) (φ := .f32)) S (val_main_cst_2 (F := Ideal))
    reducesTo_S1x3_S1_d1 (by decide) h_S_ i).trans ?_
  refine congrArg (fun f => (Finset.univ : Finset (Fin 3)).fold max negInf f) ?_
  funext k
  exact congrArg S (lift_eq _ i k)

/-- The host's maximum of the summed row (reduce from `-∞`, then `max` with `-∞`), at its one index. -/
theorem max_apply (i : S1.Idx) :
    val_main_v18 (F := Ideal) x0 x1 x2 x3 x4 i = rowMax (sumRow x0 x1 x2 x3 x4) := by
  rw [val_main_v18_apply, val_main_v17_apply, val_main_cst_3_apply]
  unfold val_main_v16
  rw [reduceMax_apply]
  unfold rowMax
  rfl

/-- The shifted exponential at `(0, k)`. -/
theorem exp_apply (k : Fin 3) :
    val_main_v22 (F := Ideal) x0 x1 x2 x3 x4 (ix2 (0 : Fin 1) k) = shiftedExp (sumRow x0 x1 x2 x3 x4) k := by
  rw [val_main_v22_apply, val_main_v21_apply, val_main_v20_apply, val_main_v19_apply, max_apply,
    Ideal.hostUnary_exp_def, Ideal.subf_def]
  unfold shiftedExp
  rfl

/-- The reference's result at `(0, j)`: the softmax of the summed row. -/
theorem result_apply (j : Fin 3) :
    val_main_v26 (F := Ideal) x0 x1 x2 x3 x4 (ix2 (0 : Fin 1) j) = softmax3 (sumRow x0 x1 x2 x3 x4) j := by
  rw [val_main_v26_apply, val_main_v25_apply, val_main_v24_apply, val_main_v23_apply, val_main_cst_4_apply, exp_apply,
    Ideal.hostDivf_def, Ideal.ofBits_def, Ideal.ofBits_zero_f32, zero_add]
  unfold softmax3
  refine congrArg (Ideal.div _) (Finset.sum_congr rfl fun k _ => ?_)
  have e : idx_main_v23 (idx_main_v24 (idx_main_v25 (ix2 (0 : Fin 1) j))) k = ix2 (0 : Fin 1) k :=
    funext fun a => Fin.ext (by match a with | ⟨0, _⟩ => rfl | ⟨1, _⟩ => rfl)
  rw [e]
  exact exp_apply x0 x1 x2 x3 x4 k

end Cert.ReferenceIdeal.RefValue

end
-- ==== Proof.Bridge.lean ====
/-
  The two programs side by side. Before the region the kernel's program applies to its arguments exactly the host
  operations the reference opens with (wrap negative indices, gather the rows of x, scatter-add them into a zero
  array), so the aggregate array the region finds IS the reference's aggregate stage — one function of the
  arguments, never opened. With that, both results are the softmax of the row `0 + readout` of the same four
  arrays, index by index.
-/
import proofs.«115697_j63917703299187_1_alg».proof.Proof.KernelValue
import proofs.«115697_j63917703299187_1_alg».proof.Proof.RefValue
import Idealize.ShloMosaic.Lib.StableHlo.Run

noncomputable section

namespace Cert.Bridge

open Idealize.ShloMosaic Idealize.ShloMosaic.TcCoe Idealize.SL.Sem Idealize.ShloMosaic.StableHlo
open Idealize.ShloMosaic.ValueIdx Cert.SoftmaxSpec

variable (m : (ℓ : Loc Cert.KernelIdeal.nD Cert.KernelIdeal.τ Cert.KernelIdeal.sig) → Buf (Elt Ideal) ℓ)

/-- The aggregate array as the region finds it is the reference's aggregate stage of the launch arguments. -/
theorem agg_eq (c : Dev Cert.KernelIdeal.nD) :
    (Cert.KernelIdeal.Gen.V m c Cert.KernelIdeal.main_v9 : (⟨2, ![1000000, 3]⟩ : Shape).Idx → EReal)
      = Cert.ReferenceIdeal.Read.val_main_v9 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) := by
  dsimp only [Cert.KernelIdeal.Gen.V, Cert.KernelIdeal.Gen.hostOps0]
  after_results_simp
  rfl

/-- The reference's result of the launch arguments is the kernel's result array. -/
theorem result_eq (c : Dev Cert.KernelIdeal.nD) :
    Cert.ReferenceIdeal.Read.val_main_v26 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.KernelValue.result m c := by
  funext i
  obtain ⟨j, rfl⟩ : ∃ j : Fin 3, i = ix2 (0 : Fin 1) j :=
    ⟨Cert.KernelIdeal.Accumulate.col i, Cert.KernelIdeal.Accumulate.eq_col i⟩
  refine (Cert.ReferenceIdeal.RefValue.result_apply _ _ _ _ _ j).trans ?_
  refine Eq.trans ?_ (Cert.KernelIdeal.KernelValue.result_apply m c j).symm
  refine congrArg (fun s => softmax3 s j) (funext fun k => ?_)
  refine (Cert.ReferenceIdeal.RefValue.sumRow_apply _ _ _ _ _ k).trans ?_
  show _ = Cert.ColumnSumSpec.zero + Cert.ColumnSumSpec.colSum _ _ _ _ k
  rw [agg_eq m c, Cert.KernelIdeal.Gen.V_main_arg0, Cert.KernelIdeal.Gen.V_main_arg1, Cert.KernelIdeal.Gen.V_main_arg2]

end Cert.Bridge

end
-- ==== Proof.lean ====
/-
  The certificate of a graph-convolution readout on 1000000 nodes with 3 features.

  Both programs first aggregate neighbour features with the same host operations (wrap negative indices, gather
  rows of `x` at `src`, scatter-add them at `dst` into a zero array). The kernel then walks 100 blocks of 10000
  rows: at each it adds to a [1,3] scratch row the block's column sums of `max (x·W + agg·M) 0`, the scratch zeroed
  at the first block, and at the last block it writes the softmax of the scratch row to the result. The reference
  forms `max (x·W + agg·M) 0` for all rows at once, sums the rows and takes the softmax.

  On the extended reals the two are one function. The 3-term products into zero accumulators and the host's
  `dot_general` are the same sums; the lane reduction over a block's rows and the host's reduce over all rows are
  sums; and 100 partial sums of 10000 rows added up are the sum over the 1000000 rows, by commutativity and
  associativity of `+` alone — so the precondition (finite inputs) is never opened. The two softmax spellings
  (max from `-∞`, `max` with `-∞`, subtract, exponentiate, divide by the sum) agree step by step.

  The three frames: the two kernel programs' are the generated frame certificates; the reference's is its generated
  run with the result dropped. The ideal pass rewrote nothing, so the kernel's idealization is the program's own
  text read on the extended reals.
-/
import proofs.«115697_j63917703299187_1_alg».proof.Defs
import proofs.«115697_j63917703299187_1_alg».proof.Proof.Gen.Kernel
import proofs.«115697_j63917703299187_1_alg».proof.Proof.Gen.Kernel.Skeleton
import proofs.«115697_j63917703299187_1_alg».proof.Proof.Gen.Kernel.Launch
import proofs.«115697_j63917703299187_1_alg».proof.Proof.Gen.Kernel.Points
import proofs.«115697_j63917703299187_1_alg».proof.Proof.Gen.Kernel.Frame
import proofs.«115697_j63917703299187_1_alg».proof.Proof.Gen.KernelIdeal
import proofs.«115697_j63917703299187_1_alg».proof.Proof.Gen.KernelIdeal.Skeleton
import proofs.«115697_j63917703299187_1_alg».proof.Proof.Gen.KernelIdeal.Launch
import proofs.«115697_j63917703299187_1_alg».proof.Proof.Gen.KernelIdeal.Points
import proofs.«115697_j63917703299187_1_alg».proof.Proof.Gen.KernelIdeal.Frame
import proofs.«115697_j63917703299187_1_alg».proof.Proof.Gen.ReferenceIdeal
import proofs.«115697_j63917703299187_1_alg».proof.Proof.Gen.Pre_finite_inputs
import proofs.«115697_j63917703299187_1_alg».proof.Proof.Gen.KernelIdeal.Value
import proofs.«115697_j63917703299187_1_alg».proof.Proof.Gen.ReferenceIdeal.Run
import proofs.«115697_j63917703299187_1_alg».proof.Proof.Gen.ReferenceIdeal.Read
import proofs.«115697_j63917703299187_1_alg».proof.Proof.KernelValue
import proofs.«115697_j63917703299187_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- On the extended reals, from memories that agree on the arguments, the kernel's result array and the reference's
    end equal: both are the softmax of the row `0 + readout`. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
